-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S50000x64 : Shape := ⟨2, ![50000, 64]⟩
abbrev S2000000 : Shape := ⟨1, ![2000000]⟩
abbrev S2048 : Shape := ⟨1, ![2048]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S2000000 : S_.BroadcastsInDim S2000000 (![] : Fin 0 → Fin S2000000.rank)
  reducesTo_S2000000_S_d0 : S2000000.ReducesTo [0] S_

variable [Facts]

def fn {F : FTy → Type} [FloatOps F] (main_arg0 : FVec F S100000x64 .f32) (main_arg1 : FVec F S50000x64 .f32) (main_arg2 : FVec F S2000000 .f32) (main_arg3 : IVec S2000000 32) (main_arg4 : IVec S2000000 32) (main_arg5 : IVec S2048 32) (main_arg6 : IVec S2048 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S2000000 .f32 := Host.absf main_arg2
  let main_cst_2 : FVec F S_ .f32 := constant S_ .f32 0x7F800000#32
  let main_v10 : FVec F S2000000 .f32 := broadcastInDim S2000000 ![] bcast_S_S2000000 main_cst_2
  let main_v11 : IVec S2000000 1 := cmpf .olt main_v9 main_v10
  let main_c_3 : IVec S_ 1 := constantI S_ 1 1#1
  let main_v12 : IVec S_ 1 := (fun x v => Host.reduce IntOp.andi x v reducesTo_S2000000_S_d0 h_S_) main_v11 main_c_3
  let main_v13 : IVec S_ 1 := andi main_v8 main_v12
  main_v13
-- ==== Kernel.lean ====
abbrev S100000x64 : Shape := ⟨2, ![100000, 64]⟩
abbrev S50000x64 : Shape := ⟨2, ![50000, 64]⟩
abbrev S2000000 : Shape := ⟨1, ![2000000]⟩
abbrev S2048 : Shape := ⟨1, ![2048]⟩
abbrev S150000x64 : Shape := ⟨2, ![150000, 64]⟩
abbrev S2000000x1 : Shape := ⟨2, ![2000000, 1]⟩
abbrev S_ : Shape := ⟨0, ![]⟩
abbrev S2000000x64 : Shape := ⟨2, ![2000000, 64]⟩
abbrev S2048x1 : Shape := ⟨2, ![2048, 1]⟩
abbrev S2048x64 : Shape := ⟨2, ![2048, 64]⟩
abbrev S2048x2048 : Shape := ⟨2, ![2048, 2048]⟩
abbrev S512x64 : Shape := ⟨2, ![512, 64]⟩
abbrev S512x2048 : Shape := ⟨2, ![512, 2048]⟩

abbrev nBuf : Space → Nat
  | .hbm => 83
  | .vmem => 5
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S2000000, .f32⟩
  | .hbm, ⟨3, _⟩ => ⟨S2000000, .i32⟩
  | .hbm, ⟨4, _⟩ => ⟨S2000000, .i32⟩
  | .hbm, ⟨5, _⟩ => ⟨S2048, .i32⟩
  | .hbm, ⟨6, _⟩ => ⟨S2048, .i32⟩
  | .hbm, ⟨7, _⟩ => ⟨S150000x64, .f32⟩
  | .hbm, ⟨8, _⟩ => ⟨S2000000x1, .f32⟩
  | .hbm, ⟨9, _⟩ => ⟨S_, .i32⟩
  | .hbm, ⟨10, _⟩ => ⟨S2000000, .i32⟩
  | .hbm, ⟨11, _⟩ => ⟨S2000000, .i1⟩
  | .hbm, ⟨12, _⟩ => ⟨S_, .i32⟩
  | .hbm, ⟨13, _⟩ => ⟨S2000000, .i32⟩
  | .hbm, ⟨14, _⟩ => ⟨S2000000, .i32⟩
  | .hbm, ⟨15, _⟩ => ⟨S2000000, .i32⟩
  | .hbm, ⟨16, _⟩ => ⟨S2000000x1, .i32⟩
  | .hbm, ⟨17, _⟩ => ⟨S2000000x64, .f32⟩
  | .hbm, ⟨18, _⟩ => ⟨S2000000x64, .f32⟩
  | .hbm, ⟨19, _⟩ => ⟨S2000000x64, .f32⟩
  | .hbm, ⟨20, _⟩ => ⟨S_, .f32⟩
  | .hbm, ⟨21, _⟩ => ⟨S150000x64, .f32⟩
  | .hbm, ⟨22, _⟩ => ⟨S2000000x1, .i32⟩
  | .hbm, ⟨23, _⟩ => ⟨S150000x64, .f32⟩
  | .hbm, ⟨24, _⟩ => ⟨S150000x64, .f32⟩
  | .hbm, ⟨25, _⟩ => ⟨S2000000x1, .f32⟩
  | .hbm, ⟨26, _⟩ => ⟨S_, .i32⟩
  | .hbm, ⟨27, _⟩ => ⟨S2000000, .i32⟩
  | .hbm, ⟨28, _⟩ => ⟨S2000000, .i1⟩
  | .hbm, ⟨29, _⟩ => ⟨S_, .i32⟩
  | .hbm, ⟨30, _⟩ => ⟨S2000000, .i32⟩
  | .hbm, ⟨31, _⟩ => ⟨S2000000, .i32⟩
  | .hbm, ⟨32, _⟩ => ⟨S2000000, .i32⟩
  | .hbm, ⟨33, _⟩ => ⟨S2000000x1, .i32⟩
  | .hbm, ⟨34, _⟩ => ⟨S2000000x64, .f32⟩
  | .hbm, ⟨35, _⟩ => ⟨S2000000x64, .f32⟩
  | .hbm, ⟨36, _⟩ => ⟨S2000000x64, .f32⟩
  | .hbm, ⟨37, _⟩ => ⟨S_, .f32⟩
  | .hbm, ⟨38, _⟩ => ⟨S150000x64, .f32⟩
  | .hbm, ⟨39, _⟩ => ⟨S2000000x1, .i32⟩
  | .hbm, ⟨40, _⟩ => ⟨S150000x64, .f32⟩
  | .hbm, ⟨41, _⟩ => ⟨S150000x64, .f32⟩
  | .hbm, ⟨42, _⟩ => ⟨S2000000x1, .f32⟩
  | .hbm, ⟨43, _⟩ => ⟨S_, .i32⟩
  | .hbm, ⟨44, _⟩ => ⟨S2000000, .i32⟩
  | .hbm, ⟨45, _⟩ => ⟨S2000000, .i1⟩
  | .hbm, ⟨46, _⟩ => ⟨S_, .i32⟩
  | .hbm, ⟨47, _⟩ => ⟨S2000000, .i32⟩
  | .hbm, ⟨48, _⟩ => ⟨S2000000, .i32⟩
  | .hbm, ⟨49, _⟩ => ⟨S2000000, .i32⟩
  | .hbm, ⟨50, _⟩ => ⟨S2000000x1, .i32⟩
  | .hbm, ⟨51, _⟩ => ⟨S2000000x64, .f32⟩
  | .hbm, ⟨52, _⟩ => ⟨S2000000x64, .f32⟩
  | .hbm, ⟨53, _⟩ => ⟨S2000000x64, .f32⟩
  | .hbm, ⟨54, _⟩ => ⟨S_, .f32⟩
  | .hbm, ⟨55, _⟩ => ⟨S150000x64, .f32⟩
  | .hbm, ⟨56, _⟩ => ⟨S2000000x1, .i32⟩
  | .hbm, ⟨57, _⟩ => ⟨S150000x64, .f32⟩
  | .hbm, ⟨58, _⟩ => ⟨S150000x64, .f32⟩
  | .hbm, ⟨59, _⟩ => ⟨S_, .f32⟩
  | .hbm, ⟨60, _⟩ => ⟨S150000x64, .f32⟩
  | .hbm, ⟨61, _⟩ => ⟨S150000x64, .f32⟩
  | .hbm, ⟨62, _⟩ => ⟨S100000x64, .f32⟩
  | .hbm, ⟨63, _⟩ => ⟨S50000x64, .f32⟩
  | .hbm, ⟨64, _⟩ => ⟨S_, .i32⟩
  | .hbm, ⟨65, _⟩ => ⟨S2048, .i32⟩
  | .hbm, ⟨66, _⟩ => ⟨S2048, .i1⟩
  | .hbm, ⟨67, _⟩ => ⟨S_, .i32⟩
  | .hbm, ⟨68, _⟩ => ⟨S2048, .i32⟩
  | .hbm, ⟨69, _⟩ => ⟨S2048, .i32⟩
  | .hbm, ⟨70, _⟩ => ⟨S2048, .i32⟩
  | .hbm, ⟨71, _⟩ => ⟨S2048x1, .i32⟩
  | .hbm, ⟨72, _⟩ => ⟨S2048x64, .f32⟩
  | .hbm, ⟨73, _⟩ => ⟨S_, .i32⟩
  | .hbm, ⟨74, _⟩ => ⟨S2048, .i32⟩
  | .hbm, ⟨75, _⟩ => ⟨S2048, .i1⟩
  | .hbm, ⟨76, _⟩ => ⟨S_, .i32⟩
  | .hbm, ⟨77, _⟩ => ⟨S2048, .i32⟩
  | .hbm, ⟨78, _⟩ => ⟨S2048, .i32⟩
  | .hbm, ⟨79, _⟩ => ⟨S2048, .i32⟩
  | .hbm, ⟨80, _⟩ => ⟨S2048x1, .i32⟩
  | .hbm, ⟨81, _⟩ => ⟨S2048x64, .f32⟩
  | .hbm, ⟨82, _⟩ => ⟨S2048x2048, .f32⟩
  | .local _ .vmem, ⟨0, _⟩ => ⟨S512x64, .f32⟩
  | .local _ .vmem, ⟨1, _⟩ => ⟨S512x64, .f32⟩
  | .local _ .vmem, ⟨2, _⟩ => ⟨S2048x64, .f32⟩
  | .local _ .vmem, ⟨3, _⟩ => ⟨S512x2048, .f32⟩
  | .local _ .vmem, ⟨4, _⟩ => ⟨S512x2048, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_1 : Ref sig .tc := ⟨.hbm, 26, rfl⟩
abbrev main_v16 : Ref sig .tc := ⟨.hbm, 27, rfl⟩
abbrev main_v17 : Ref sig .tc := ⟨.hbm, 28, rfl⟩
abbrev main_c_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_4 : Ref sig .tc := ⟨.hbm, 43, rfl⟩
abbrev main_v30 : Ref sig .tc := ⟨.hbm, 44, rfl⟩
abbrev main_v31 : Ref sig .tc := ⟨.hbm, 45, rfl⟩
abbrev main_c_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_7 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_c_8 : Ref sig .tc := ⟨.hbm, 64, rfl⟩
abbrev main_v47 : Ref sig .tc := ⟨.hbm, 65, rfl⟩
abbrev main_v48 : Ref sig .tc := ⟨.hbm, 66, rfl⟩
abbrev main_c_9 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_c_10 : Ref sig .tc := ⟨.hbm, 73, rfl⟩
abbrev main_v54 : Ref sig .tc := ⟨.hbm, 74, rfl⟩
abbrev main_v55 : Ref sig .tc := ⟨.hbm, 75, rfl⟩
abbrev main_c_11 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  concatenates_S100000x64_S50000x64_S150000x64_d0 : Shape.Concatenates [S100000x64, S50000x64] S150000x64 0
  bcast_S2000000_S2000000x1_0 : S2000000.BroadcastsInDim S2000000x1 (![0] : Fin 1 → Fin S2000000x1.rank)
  bcast_S_S2000000 : S_.BroadcastsInDim S2000000 (![] : Fin 0 → Fin S2000000.rank)
  bcast_S2000000x1_S2000000x64_0_1 : S2000000x1.BroadcastsInDim S2000000x64 (![0, 1] : Fin 2 → Fin S2000000x64.rank)
  bcast_S_S150000x64 : S_.BroadcastsInDim S150000x64 (![] : Fin 0 → Fin S150000x64.rank)
  slices_S150000x64_S100000x64_0_0 : S150000x64.Slices ![0, 0] S100000x64
  slices_S150000x64_S50000x64_100000_0 : S150000x64.Slices ![100000, 0] S50000x64
  bcast_S_S2048 : S_.BroadcastsInDim S2048 (![] : Fin 0 → Fin S2048.rank)
  bcast_S2048_S2048x1_0 : S2048.BroadcastsInDim S2048x1 (![0] : Fin 1 → Fin S2048x1.rank)
  inb_S512x64_S512x64_0_0 : ∀ a, (![0, 0] : Fin 2 → Nat) a + S512x64.size a ≤ S512x64.size a
  h_S512x64 : 0 < S512x64.numel
  shapeCasts_S512x64_S512x64 : S512x64.ShapeCasts S512x64
  bitsLt_bf16_f32 : FTy.bits .bf16 < FTy.bits .f32
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S512x2048_S512x2048_0_0 : ∀ a, (![0, 0] : Fin 2 → Nat) a + S512x2048.size a ≤ S512x2048.size a
  h_S512x2048 : 0 < S512x2048.numel
  gather_S150000x64_S2000000x1_S2000000x64_1_0_n_n_0_1_164_wf : GatherDims.WF S150000x64 S2000000x1 S2000000x64 [1] [0] [] [0] [] 1 ![1, 64]
  scatter_S150000x64_S2000000x1_S2000000x64_1_0_0_1_wf : ScatterDims.WF S150000x64 S2000000x1 S2000000x64 [1] [0] [0] 1
  gather_S100000x64_S2048x1_S2048x64_1_0_n_n_0_1_164_wf : GatherDims.WF S100000x64 S2048x1 S2048x64 [1] [0] [] [0] [] 1 ![1, 64]
  gather_S50000x64_S2048x1_S2048x64_1_0_n_n_0_1_164_wf : GatherDims.WF S50000x64 S2048x1 S2048x64 [1] [0] [] [0] [] 1 ![1, 64]
  dot_S512x64_S2048x64_S512x2048_1_1_0_0_n_n_wf : DotDims.WF S512x64 S2048x64 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x64.size a ≤ S2048x64.size a
  hwx0_0 : ∀ i : grid0.Coords, EltTy.bits .f32 = 32 ∨ (Rect.block (s := S2048x64) S512x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S2048x64.size a
  hwx0_1 : ∀ i : grid0.Coords, EltTy.bits .f32 = 32 ∨ (Rect.block (s := S2048x64) S2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S2048x2048.size a
  hwx0_2 : ∀ i : grid0.Coords, EltTy.bits .f32 = 32 ∨ (Rect.block (s := S2048x2048) S512x2048.size (cc0_transform_2 i) (hinb0_2 i)).WholeWords (EltTy.packing .f32)

variable [Facts₀]

def gather_S150000x64_S2000000x1_S2000000x64_1_0_n_n_0_1_164 : GatherDims S150000x64 S2000000x1 S2000000x64 where
  offsetDims := [1]
  collapsedSliceDims := [0]
  operandBatchingDims := []
  startIndicesBatchingDims := []
  startIndexMap := [0]
  indexVectorDim := 1
  sliceSizes := ![1, 64]
  wf := gather_S150000x64_S2000000x1_S2000000x64_1_0_n_n_0_1_164_wf
def scatter_S150000x64_S2000000x1_S2000000x64_1_0_0_1 : ScatterDims S150000x64 S2000000x1 S2000000x64 where
  updateWindowDims := [1]
  insertedWindowDims := [0]
  scatterDimsToOperandDims := [0]
  indexVectorDim := 1
  wf := scatter_S150000x64_S2000000x1_S2000000x64_1_0_0_1_wf
def gather_S100000x64_S2048x1_S2048x64_1_0_n_n_0_1_164 : GatherDims S100000x64 S2048x1 S2048x64 where
  offsetDims := [1]
  collapsedSliceDims := [0]
  operandBatchingDims := []
  startIndicesBatchingDims := []
  startIndexMap := [0]
  indexVectorDim := 1
  sliceSizes := ![1, 64]
  wf := gather_S100000x64_S2048x1_S2048x64_1_0_n_n_0_1_164_wf
def gather_S50000x64_S2048x1_S2048x64_1_0_n_n_0_1_164 : GatherDims S50000x64 S2048x1 S2048x64 where
  offsetDims := [1]
  collapsedSliceDims := [0]
  operandBatchingDims := []
  startIndicesBatchingDims := []
  startIndexMap := [0]
  indexVectorDim := 1
  sliceSizes := ![1, 64]
  wf := gather_S50000x64_S2048x1_S2048x64_1_0_n_n_0_1_164_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf

abbrev win0_0 : Pipeline.Window sig grid0 :=
  Pipeline.Window.ofSpec (Memref.whole main_v53) S512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v60) S2048x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v61) S512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x64 : Shape := ⟨2, ![100000, 64]⟩
abbrev S50000x64 : Shape := ⟨2, ![50000, 64]⟩
abbrev S2000000 : Shape := ⟨1, ![2000000]⟩
abbrev S2048 : Shape := ⟨1, ![2048]⟩
abbrev S150000x64 : Shape := ⟨2, ![150000, 64]⟩
abbrev S2000000x1 : Shape := ⟨2, ![2000000, 1]⟩
abbrev S_ : Shape := ⟨0, ![]⟩
abbrev S2000000x64 : Shape := ⟨2, ![2000000, 64]⟩
abbrev S2048x1 : Shape := ⟨2, ![2048, 1]⟩
abbrev S2048x64 : Shape := ⟨2, ![2048, 64]⟩
abbrev S64x2048 : Shape := ⟨2, ![64, 2048]⟩
abbrev S2048x2048 : Shape := ⟨2, ![2048, 2048]⟩

abbrev nBuf : Space → Nat
  | .hbm => 92
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S2000000, .f32⟩
  | .hbm, ⟨3, _⟩ => ⟨S2000000, .i32⟩
  | .hbm, ⟨4, _⟩ => ⟨S2000000, .i32⟩
  | .hbm, ⟨5, _⟩ => ⟨S2048, .i32⟩
  | .hbm, ⟨6, _⟩ => ⟨S2048, .i32⟩
  | .hbm, ⟨7, _⟩ => ⟨S150000x64, .f32⟩
  | .hbm, ⟨8, _⟩ => ⟨S2000000x1, .f32⟩
  | .hbm, ⟨9, _⟩ => ⟨S_, .i32⟩
  | .hbm, ⟨10, _⟩ => ⟨S2000000, .i32⟩
  | .hbm, ⟨11, _⟩ => ⟨S2000000, .i1⟩
  | .hbm, ⟨12, _⟩ => ⟨S_, .i32⟩
  | .hbm, ⟨13, _⟩ => ⟨S2000000, .i32⟩
  | .hbm, ⟨14, _⟩ => ⟨S2000000, .i32⟩
  | .hbm, ⟨15, _⟩ => ⟨S2000000, .i32⟩
  | .hbm, ⟨16, _⟩ => ⟨S2000000x1, .i32⟩
  | .hbm, ⟨17, _⟩ => ⟨S2000000x64, .f32⟩
  | .hbm, ⟨18, _⟩ => ⟨S2000000x64, .f32⟩
  | .hbm, ⟨19, _⟩ => ⟨S2000000x64, .f32⟩
  | .hbm, ⟨20, _⟩ => ⟨S_, .f32⟩
  | .hbm, ⟨21, _⟩ => ⟨S150000x64, .f32⟩
  | .hbm, ⟨22, _⟩ => ⟨S2000000x1, .i32⟩
  | .hbm, ⟨23, _⟩ => ⟨S150000x64, .f32⟩
  | .hbm, ⟨24, _⟩ => ⟨S150000x64, .f32⟩
  | .hbm, ⟨25, _⟩ => ⟨S2000000x1, .f32⟩
  | .hbm, ⟨26, _⟩ => ⟨S_, .i32⟩
  | .hbm, ⟨27, _⟩ => ⟨S2000000, .i32⟩
  | .hbm, ⟨28, _⟩ => ⟨S2000000, .i1⟩
  | .hbm, ⟨29, _⟩ => ⟨S_, .i32⟩
  | .hbm, ⟨30, _⟩ => ⟨S2000000, .i32⟩
  | .hbm, ⟨31, _⟩ => ⟨S2000000, .i32⟩
  | .hbm, ⟨32, _⟩ => ⟨S2000000, .i32⟩
  | .hbm, ⟨33, _⟩ => ⟨S2000000x1, .i32⟩
  | .hbm, ⟨34, _⟩ => ⟨S2000000x64, .f32⟩
  | .hbm, ⟨35, _⟩ => ⟨S2000000x64, .f32⟩
  | .hbm, ⟨36, _⟩ => ⟨S2000000x64, .f32⟩
  | .hbm, ⟨37, _⟩ => ⟨S_, .f32⟩
  | .hbm, ⟨38, _⟩ => ⟨S150000x64, .f32⟩
  | .hbm, ⟨39, _⟩ => ⟨S2000000x1, .i32⟩
  | .hbm, ⟨40, _⟩ => ⟨S150000x64, .f32⟩
  | .hbm, ⟨41, _⟩ => ⟨S150000x64, .f32⟩
  | .hbm, ⟨42, _⟩ => ⟨S2000000x1, .f32⟩
  | .hbm, ⟨43, _⟩ => ⟨S_, .i32⟩
  | .hbm, ⟨44, _⟩ => ⟨S2000000, .i32⟩
  | .hbm, ⟨45, _⟩ => ⟨S2000000, .i1⟩
  | .hbm, ⟨46, _⟩ => ⟨S_, .i32⟩
  | .hbm, ⟨47, _⟩ => ⟨S2000000, .i32⟩
  | .hbm, ⟨48, _⟩ => ⟨S2000000, .i32⟩
  | .hbm, ⟨49, _⟩ => ⟨S2000000, .i32⟩
  | .hbm, ⟨50, _⟩ => ⟨S2000000x1, .i32⟩
  | .hbm, ⟨51, _⟩ => ⟨S2000000x64, .f32⟩
  | .hbm, ⟨52, _⟩ => ⟨S2000000x64, .f32⟩
  | .hbm, ⟨53, _⟩ => ⟨S2000000x64, .f32⟩
  | .hbm, ⟨54, _⟩ => ⟨S_, .f32⟩
  | .hbm, ⟨55, _⟩ => ⟨S150000x64, .f32⟩
  | .hbm, ⟨56, _⟩ => ⟨S2000000x1, .i32⟩
  | .hbm, ⟨57, _⟩ => ⟨S150000x64, .f32⟩
  | .hbm, ⟨58, _⟩ => ⟨S150000x64, .f32⟩
  | .hbm, ⟨59, _⟩ => ⟨S_, .f32⟩
  | .hbm, ⟨60, _⟩ => ⟨S150000x64, .f32⟩
  | .hbm, ⟨61, _⟩ => ⟨S150000x64, .f32⟩
  | .hbm, ⟨62, _⟩ => ⟨S100000x64, .f32⟩
  | .hbm, ⟨63, _⟩ => ⟨S50000x64, .f32⟩
  | .hbm, ⟨64, _⟩ => ⟨S_, .i32⟩
  | .hbm, ⟨65, _⟩ => ⟨S2048, .i32⟩
  | .hbm, ⟨66, _⟩ => ⟨S2048, .i1⟩
  | .hbm, ⟨67, _⟩ => ⟨S_, .i32⟩
  | .hbm, ⟨68, _⟩ => ⟨S2048, .i32⟩
  | .hbm, ⟨69, _⟩ => ⟨S2048, .i32⟩
  | .hbm, ⟨70, _⟩ => ⟨S2048, .i32⟩
  | .hbm, ⟨71, _⟩ => ⟨S2048x1, .i32⟩
  | .hbm, ⟨72, _⟩ => ⟨S2048x64, .f32⟩
  | .hbm, ⟨73, _⟩ => ⟨S_, .i32⟩
  | .hbm, ⟨74, _⟩ => ⟨S2048, .i32⟩
  | .hbm, ⟨75, _⟩ => ⟨S2048, .i1⟩
  | .hbm, ⟨76, _⟩ => ⟨S_, .i32⟩
  | .hbm, ⟨77, _⟩ => ⟨S2048, .i32⟩
  | .hbm, ⟨78, _⟩ => ⟨S2048, .i32⟩
  | .hbm, ⟨79, _⟩ => ⟨S2048, .i32⟩
  | .hbm, ⟨80, _⟩ => ⟨S2048x1, .i32⟩
  | .hbm, ⟨81, _⟩ => ⟨S2048x64, .f32⟩
  | .hbm, ⟨82, _⟩ => ⟨S64x2048, .f32⟩
  | .hbm, ⟨83, _⟩ => ⟨S2048x2048, .f32⟩
  | .hbm, ⟨84, _⟩ => ⟨S2048x2048, .f32⟩
  | .hbm, ⟨85, _⟩ => ⟨S2048x2048, .f32⟩
  | .hbm, ⟨86, _⟩ => ⟨S_, .f32⟩
  | .hbm, ⟨87, _⟩ => ⟨S2048x2048, .f32⟩
  | .hbm, ⟨88, _⟩ => ⟨S2048x2048, .f32⟩
  | .hbm, ⟨89, _⟩ => ⟨S_, .f32⟩
  | .hbm, ⟨90, _⟩ => ⟨S2048x2048, .f32⟩
  | .hbm, ⟨91, _⟩ => ⟨S2048x2048, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_1 : Ref sig .tc := ⟨.hbm, 26, rfl⟩
abbrev main_v16 : Ref sig .tc := ⟨.hbm, 27, rfl⟩
abbrev main_v17 : Ref sig .tc := ⟨.hbm, 28, rfl⟩
abbrev main_c_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_4 : Ref sig .tc := ⟨.hbm, 43, rfl⟩
abbrev main_v30 : Ref sig .tc := ⟨.hbm, 44, rfl⟩
abbrev main_v31 : Ref sig .tc := ⟨.hbm, 45, rfl⟩
abbrev main_c_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_7 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_c_8 : Ref sig .tc := ⟨.hbm, 64, rfl⟩
abbrev main_v47 : Ref sig .tc := ⟨.hbm, 65, rfl⟩
abbrev main_v48 : Ref sig .tc := ⟨.hbm, 66, rfl⟩
abbrev main_c_9 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_c_10 : Ref sig .tc := ⟨.hbm, 73, rfl⟩
abbrev main_v54 : Ref sig .tc := ⟨.hbm, 74, rfl⟩
abbrev main_v55 : Ref sig .tc := ⟨.hbm, 75, rfl⟩
abbrev main_c_11 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_12 : Ref sig .tc := ⟨.hbm, 86, rfl⟩
abbrev main_v65 : Ref sig .tc := ⟨.hbm, 87, rfl⟩
abbrev main_v66 : Ref sig .tc := ⟨.hbm, 88, rfl⟩
abbrev main_cst_13 : Ref sig .tc := ⟨.hbm, 89, rfl⟩
abbrev main_v67 : Ref sig .tc := ⟨.hbm, 90, rfl⟩
abbrev main_v68 : Ref sig .tc := ⟨.hbm, 91, rfl⟩

abbrev nD : Nat := 1
abbrev τ : Topo := Topo.v7x

variable {F : FTy → Type} [FloatOps F]

class Facts₀ : Prop where
  concatenates_S100000x64_S50000x64_S150000x64_d0 : Shape.Concatenates [S100000x64, S50000x64] S150000x64 0
  bcast_S2000000_S2000000x1_0 : S2000000.BroadcastsInDim S2000000x1 (![0] : Fin 1 → Fin S2000000x1.rank)
  bcast_S_S2000000 : S_.BroadcastsInDim S2000000 (![] : Fin 0 → Fin S2000000.rank)
  bcast_S2000000x1_S2000000x64_0_1 : S2000000x1.BroadcastsInDim S2000000x64 (![0, 1] : Fin 2 → Fin S2000000x64.rank)
  bcast_S_S150000x64 : S_.BroadcastsInDim S150000x64 (![] : Fin 0 → Fin S150000x64.rank)
  slices_S150000x64_S100000x64_0_0 : S150000x64.Slices ![0, 0] S100000x64
  slices_S150000x64_S50000x64_100000_0 : S150000x64.Slices ![100000, 0] S50000x64
  bcast_S_S2048 : S_.BroadcastsInDim S2048 (![] : Fin 0 → Fin S2048.rank)
  bcast_S2048_S2048x1_0 : S2048.BroadcastsInDim S2048x1 (![0] : Fin 1 → Fin S2048x1.rank)
  transposes_S2048x64_S64x2048_1_0 : S2048x64.Transposes [1, 0] S64x2048
  bcast_S_S2048x2048 : S_.BroadcastsInDim S2048x2048 (![] : Fin 0 → Fin S2048x2048.rank)
  gather_S150000x64_S2000000x1_S2000000x64_1_0_n_n_0_1_164_wf : GatherDims.WF S150000x64 S2000000x1 S2000000x64 [1] [0] [] [0] [] 1 ![1, 64]
  scatter_S150000x64_S2000000x1_S2000000x64_1_0_0_1_wf : ScatterDims.WF S150000x64 S2000000x1 S2000000x64 [1] [0] [0] 1
  gather_S100000x64_S2048x1_S2048x64_1_0_n_n_0_1_164_wf : GatherDims.WF S100000x64 S2048x1 S2048x64 [1] [0] [] [0] [] 1 ![1, 64]
  gather_S50000x64_S2048x1_S2048x64_1_0_n_n_0_1_164_wf : GatherDims.WF S50000x64 S2048x1 S2048x64 [1] [0] [] [0] [] 1 ![1, 64]
  dot_S2048x64_S64x2048_S2048x2048_1_0_0_1_n_n_wf : DotDims.WF S2048x64 S64x2048 S2048x2048 [1] [0] [0] [1] [] []

variable [Facts₀]

def gather_S150000x64_S2000000x1_S2000000x64_1_0_n_n_0_1_164 : GatherDims S150000x64 S2000000x1 S2000000x64 where
  offsetDims := [1]
  collapsedSliceDims := [0]
  operandBatchingDims := []
  startIndicesBatchingDims := []
  startIndexMap := [0]
  indexVectorDim := 1
  sliceSizes := ![1, 64]
  wf := gather_S150000x64_S2000000x1_S2000000x64_1_0_n_n_0_1_164_wf
def scatter_S150000x64_S2000000x1_S2000000x64_1_0_0_1 : ScatterDims S150000x64 S2000000x1 S2000000x64 where
  updateWindowDims := [1]
  insertedWindowDims := [0]
  scatterDimsToOperandDims := [0]
  indexVectorDim := 1
  wf := scatter_S150000x64_S2000000x1_S2000000x64_1_0_0_1_wf
def gather_S100000x64_S2048x1_S2048x64_1_0_n_n_0_1_164 : GatherDims S100000x64 S2048x1 S2048x64 where
  offsetDims := [1]
  collapsedSliceDims := [0]
  operandBatchingDims := []
  startIndicesBatchingDims := []
  startIndexMap := [0]
  indexVectorDim := 1
  sliceSizes := ![1, 64]
  wf := gather_S100000x64_S2048x1_S2048x64_1_0_n_n_0_1_164_wf
def gather_S50000x64_S2048x1_S2048x64_1_0_n_n_0_1_164 : GatherDims S50000x64 S2048x1 S2048x64 where
  offsetDims := [1]
  collapsedSliceDims := [0]
  operandBatchingDims := []
  startIndicesBatchingDims := []
  startIndexMap := [0]
  indexVectorDim := 1
  sliceSizes := ![1, 64]
  wf := gather_S50000x64_S2048x1_S2048x64_1_0_n_n_0_1_164_wf
def dot_S2048x64_S64x2048_S2048x2048_1_0_0_1_n_n : DotDims S2048x64 S64x2048 S2048x2048 where
  lhsContracting := [1]
  rhsContracting := [0]
  lhsNonContracting := [0]
  rhsNonContracting := [1]
  lhsBatch := []
  rhsBatch := []
  wf := dot_S2048x64_S64x2048_S2048x2048_1_0_0_1_n_n_wf

class Facts : Prop extends Facts₀ where

variable [Facts]
-- ==== Proof.LibMatmulRows.lean ====
/-
  A matrix product that contracts the two operands' LAST axes, read at one entry.

  For dimension numbers that contract the left operand's second axis with the right operand's second axis — the
  left operand [a, n], the right operand [b, n], the result [a, b], no batch axes: `x @ W.T` without the transpose
  ever being formed — the entry (p, q) of the product is the sum over k of left (p, k) times right (q, k): row p of
  the left operand against row q of the right one. The dimension numbers enter only through four facts about where
  the two operand indices sit (the left one reads the result's row and the contraction position, the right one the
  result's column and the contraction position); a caller proves those four facts for its own record, each by
  unfolding the record's two membership tests.

  `contr_sum_rows`     the contraction's sum re-indexed by the one contracted coordinate;
  `matmul_zero_rows`   a `tpu.matmul` into the zero accumulator at the ideal instance;
  `dotGeneral_rows`    the host's `dot_general` at the ideal instance.
-/
import Idealize.ShloMosaic.PureOps.Ideal.Laws
import Idealize.ShloMosaic.Lib.ValueIdx

noncomputable section

open scoped BigOperators

namespace Idealize.ShloMosaic.MatmulRows

open Idealize.ShloMosaic Idealize.ShloMosaic.ValueIdx

variable {a n b : ℕ}

/-- The sum over the contraction positions of a one-axis contraction of the operands' last axes is the sum over the
    contracted coordinate `k : Fin n`, the left operand read at `(p, k)` and the right one at `(q, k)`. -/
theorem contr_sum_rows (D : DotDims ⟨2, ![a, n]⟩ ⟨2, ![b, n]⟩ ⟨2, ![a, b]⟩) (hr : D.contr.rank = 1)
    (hs : D.contr.size ⟨0, by omega⟩ = n)
    (hl0 : ∀ i c, (D.lhsIdx i c (0 : Fin 2)).val = (i (0 : Fin 2)).val)
    (hl1 : ∀ i c, (D.lhsIdx i c (1 : Fin 2)).val = (c ⟨0, by omega⟩).val)
    (hr0 : ∀ i c, (D.rhsIdx i c (0 : Fin 2)).val = (i (1 : Fin 2)).val)
    (hr1 : ∀ i c, (D.rhsIdx i c (1 : Fin 2)).val = (c ⟨0, by omega⟩).val)
    (l : (⟨2, ![a, n]⟩ : Shape).Idx → EReal) (r : (⟨2, ![b, n]⟩ : Shape).Idx → EReal) (p : Fin a) (q : Fin b) :
    ∑ c : D.contr.Idx, l (D.lhsIdx (ix2 p q) c) * r (D.rhsIdx (ix2 p q) c) = ∑ k : Fin n, l (ix2 p k) * r (ix2 q k) := by
  rw [← Equiv.sum_comp (contrEquiv1 D n hr hs).symm]
  refine Finset.sum_congr rfl fun k _ => ?_
  have hk := contrEquiv1_symm_val D n hr hs k
  have el : D.lhsIdx (ix2 p q) ((contrEquiv1 D n hr hs).symm k) = ix2 p k := funext fun ax => Fin.ext (by
    match ax with
    | ⟨0, _⟩ => exact hl0 _ _
    | ⟨1, _⟩ => exact (hl1 _ _).trans hk)
  have er : D.rhsIdx (ix2 p q) ((contrEquiv1 D n hr hs).symm k) = ix2 q k := funext fun ax => Fin.ext (by
    match ax with
    | ⟨0, _⟩ => exact hr0 _ _
    | ⟨1, _⟩ => exact (hr1 _ _).trans hk)
  rw [el, er]

/-- A `tpu.matmul` of an [a, n] by a [b, n] operand into the zero accumulator, at the ideal instance, read at
    `(p, q)`: the sum over `k` of left `(p, k)` times right `(q, k)`. -/
theorem matmul_zero_rows {φ₁ φ₂ : FTy} (D : DotDims ⟨2, ![a, n]⟩ ⟨2, ![b, n]⟩ ⟨2, ![a, b]⟩) (hr : D.contr.rank = 1)
    (hs : D.contr.size ⟨0, by omega⟩ = n)
    (hl0 : ∀ i c, (D.lhsIdx i c (0 : Fin 2)).val = (i (0 : Fin 2)).val)
    (hl1 : ∀ i c, (D.lhsIdx i c (1 : Fin 2)).val = (c ⟨0, by omega⟩).val)
    (hr0 : ∀ i c, (D.rhsIdx i c (0 : Fin 2)).val = (i (1 : Fin 2)).val)
    (hr1 : ∀ i c, (D.rhsIdx i c (1 : Fin 2)).val = (c ⟨0, by omega⟩).val)
    (prec : Option ContractPrecision) (l : FVec Ideal ⟨2, ![a, n]⟩ φ₁) (r : FVec Ideal ⟨2, ![b, n]⟩ φ₂)
    (p : Fin a) (q : Fin b) :
    matmul D prec l r (constant ⟨2, ![a, b]⟩ .f32 0x00000000#32) (ix2 p q) = ∑ k : Fin n, l (ix2 p k) * r (ix2 q k) :=
  (Ideal.matmul_constant_zero_apply D prec l r (ix2 p q)).trans (contr_sum_rows D hr hs hl0 hl1 hr0 hr1 l r p q)

/-- The host's `dot_general` of an [a, n] by a [b, n] operand, at the ideal instance, read at `(p, q)`: the same sum. -/
theorem dotGeneral_rows {φ₁ φ₂ : FTy} (D : DotDims ⟨2, ![a, n]⟩ ⟨2, ![b, n]⟩ ⟨2, ![a, b]⟩) (hr : D.contr.rank = 1)
    (hs : D.contr.size ⟨0, by omega⟩ = n)
    (hl0 : ∀ i c, (D.lhsIdx i c (0 : Fin 2)).val = (i (0 : Fin 2)).val)
    (hl1 : ∀ i c, (D.lhsIdx i c (1 : Fin 2)).val = (c ⟨0, by omega⟩).val)
    (hr0 : ∀ i c, (D.rhsIdx i c (0 : Fin 2)).val = (i (1 : Fin 2)).val)
    (hr1 : ∀ i c, (D.rhsIdx i c (1 : Fin 2)).val = (c ⟨0, by omega⟩).val)
    (prec : Option ContractPrecision) (l : FVec Ideal ⟨2, ![a, n]⟩ φ₁) (r : FVec Ideal ⟨2, ![b, n]⟩ φ₂)
    (p : Fin a) (q : Fin b) :
    Host.dotGeneral D prec l r (ix2 p q) = ∑ k : Fin n, l (ix2 p k) * r (ix2 q k) :=
  (Ideal.dotGeneral_apply D prec .single l r (ix2 p q)).trans (contr_sum_rows D hr hs hl0 hl1 hr0 hr1 l r p q)

end Idealize.ShloMosaic.MatmulRows

end
-- ==== Proof.ScoreBody.lean ====
/-
  The kernel body's arithmetic, read at one entry.

  At a grid point the body holds a block `x` of 512 user rows and the whole table `y` of 2048 item rows, both
  [·, 64]. It rounds both to bf16 (no change over the extended reals, where a change of float format is the
  identity), multiplies them contracting the last axis of each into a zero accumulator, and applies the logistic
  function entry by entry. So the entry (p, q) of what it stores is

      logistic (∑ₖ x(p, k) · y(q, k)),     k over the 64 embedding coordinates:

  row p of the user block against row q of the item table.
-/
import proofs.«167131_j70300024701472_1_alg».proof.Proof.Gen.KernelIdeal.Skeleton
import proofs.«167131_j70300024701472_1_alg».proof.Proof.LibMatmulRows
import Idealize.ShloMosaic.Lib.Pipeline.Value
import Idealize.ShloMosaic.Lib.ValueIdx
import Idealize.ShloMosaic.PureOps.Ideal.Laws

noncomputable section

open scoped BigOperators

namespace Cert.KernelIdeal.ScoreBody

open Cert.KernelIdeal Cert.KernelIdeal.Gen Idealize.ShloMosaic Idealize.ShloMosaic.ValueIdx

/-! ## Where the product's two operand indices sit

The product's left index reads the result's row and the contraction position; its right index reads the result's
column (as a ROW of the item table) and the contraction position. -/

theorem left_row (i : S512x2048.Idx) (c : dot_S512x64_S2048x64_S512x2048_1_1_0_0_n_n.contr.Idx) :
    (dot_S512x64_S2048x64_S512x2048_1_1_0_0_n_n.lhsIdx i c (0 : Fin 2)).val = (i (0 : Fin 2)).val := by
  unfold DotDims.lhsIdx
  rw [dif_neg (show ¬(0 : Fin S512x64.rank) ∈ dot_S512x64_S2048x64_S512x2048_1_1_0_0_n_n.lhsBatch by decide),
    dif_pos (show (0 : Fin S512x64.rank) ∈ dot_S512x64_S2048x64_S512x2048_1_1_0_0_n_n.lhsNonContracting by decide)]
  rfl

theorem left_pos (i : S512x2048.Idx) (c : dot_S512x64_S2048x64_S512x2048_1_1_0_0_n_n.contr.Idx) :
    (dot_S512x64_S2048x64_S512x2048_1_1_0_0_n_n.lhsIdx i c (1 : Fin 2)).val = (c ⟨0, by decide⟩).val :=
  dot_S512x64_S2048x64_S512x2048_1_1_0_0_n_n.lhsIdx_val_of_single rfl i c

theorem right_row (i : S512x2048.Idx) (c : dot_S512x64_S2048x64_S512x2048_1_1_0_0_n_n.contr.Idx) :
    (dot_S512x64_S2048x64_S512x2048_1_1_0_0_n_n.rhsIdx i c (0 : Fin 2)).val = (i (1 : Fin 2)).val := by
  unfold DotDims.rhsIdx
  rw [dif_neg (show ¬(0 : Fin S2048x64.rank) ∈ dot_S512x64_S2048x64_S512x2048_1_1_0_0_n_n.rhsBatch by decide),
    dif_pos (show (0 : Fin S2048x64.rank) ∈ dot_S512x64_S2048x64_S512x2048_1_1_0_0_n_n.rhsNonContracting by decide)]
  rfl

theorem right_pos (i : S512x2048.Idx) (c : dot_S512x64_S2048x64_S512x2048_1_1_0_0_n_n.contr.Idx) :
    (dot_S512x64_S2048x64_S512x2048_1_1_0_0_n_n.rhsIdx i c (1 : Fin 2)).val = (c ⟨0, by decide⟩).val :=
  dot_S512x64_S2048x64_S512x2048_1_1_0_0_n_n.rhsIdx_val_of_single rfl i c

/-! ## The payload at an entry -/

/-- The product of the rounded blocks into the zero accumulator, at (p, q): the inner product of row p of the user
    block with row q of the item table. -/
theorem product_apply (x : FVec Ideal S512x64 .f32) (y : FVec Ideal S2048x64 .f32) (p : Fin 512) (q : Fin 2048) :
    matmul dot_S512x64_S2048x64_S512x2048_1_1_0_0_n_n none (truncf .bf16 x bitsLt_bf16_f32) (truncf .bf16 y bitsLt_bf16_f32)
        (constant (F := Ideal) S512x2048 .f32 0x00000000#32) (ix2 p q)
      = ∑ k : Fin 64, x (ix2 p k) * y (ix2 q k) :=
  MatmulRows.matmul_zero_rows dot_S512x64_S2048x64_S512x2048_1_1_0_0_n_n rfl rfl left_row left_pos right_row right_pos none
    (truncf .bf16 x bitsLt_bf16_f32) (truncf .bf16 y bitsLt_bf16_f32) p q

/-- What the body stores, at (p, q). -/
theorem payload_apply (x : Vec Ideal S512x64 .f32) (y : Vec Ideal S2048x64 .f32) (p : Fin 512) (q : Fin 2048) :
    k0_pay1 (F := Ideal) x y (ix2 p q) = Ideal.logistic (∑ k : Fin 64, x (ix2 p k) * y (ix2 q k)) := by
  unfold k0_pay1
  show Ideal.logistic (matmul dot_S512x64_S2048x64_S512x2048_1_1_0_0_n_n none
      (truncf .bf16 (shapeCast S512x64 x shapeCasts_S512x64_S512x64) bitsLt_bf16_f32)
      (truncf .bf16 (shapeCast S2048x64 y shapeCasts_S2048x64_S2048x64) bitsLt_bf16_f32)
      (constant (F := Ideal) S512x2048 .f32 0x00000000#32) (ix2 p q)) = _
  rw [shapeCast_self, shapeCast_self]
  exact congrArg Ideal.logistic (product_apply x y p q)

end Cert.KernelIdeal.ScoreBody

end
-- ==== Proof.Score.lean ====
/-
  The scoring table.

  From a [2048, 64] table `u` of user rows and a [2048, 64] table `v` of item rows, the [2048, 2048] table whose
  entry (p, q) is the logistic function of the inner product of row p of `u` with row q of `v`:

      score u v (p, q) = logistic (∑ₖ u(p, k) · v(q, k)),     k over the 64 embedding coordinates,

  everything read over the extended reals. Nothing here needs the entries to be finite: the sum and the products are
  the extended reals' own, and the logistic function is defined at both infinities.
-/
import Idealize.ShloMosaic.PureOps.Ideal
import Idealize.ShloMosaic.Lib.ValueIdx

noncomputable section

open scoped BigOperators

namespace Cert.Score

open Idealize.ShloMosaic Idealize.ShloMosaic.ValueIdx

/-- The shape of the two row tables and of the score table. -/
abbrev Rows : Shape := ⟨2, ![2048, 64]⟩
abbrev Table : Shape := ⟨2, ![2048, 2048]⟩

/-- The inner product of row `p` of `u` with row `q` of `v`. -/
def inner (u v : Rows.Idx → EReal) (p q : Fin 2048) : EReal :=
  ∑ k : Fin 64, u (ix2 p k) * v (ix2 q k)

/-- The score table of two row tables. -/
def score (u v : Rows.Idx → EReal) : Table.Idx → EReal :=
  fun i => Ideal.logistic (inner u v ⟨(i 0).val, (i 0).isLt⟩ ⟨(i 1).val, (i 1).isLt⟩)

/-- The score table at the entry (p, q). -/
theorem score_apply (u v : Rows.Idx → EReal) (p q : Fin 2048) :
    score u v (ix2 p q) = Ideal.logistic (∑ k : Fin 64, u (ix2 p k) * v (ix2 q k)) := rfl

end Cert.Score

end
-- ==== Proof.ScoreBlocks.lean ====
/-
  From the kernel's blocks to its whole result.

  The grid has four points. At point t the body sees rows 512·t … 512·t + 511 of the user rows `u` (the array its
  first window stands on at region entry) and the whole table of item rows `v` (its second window's array), and what
  it leaves is written back to rows 512·t … 512·t + 511 of the result, all 2048 columns. By the body's arithmetic the
  entry (p, q) of that block is logistic (∑ₖ u(512·t + p, k) · v(q, k)), which is the entry (512·t + p, q) of
  `score u v`: every point writes back its own block of the ONE table `score u v`. The four blocks tile the result's
  2048 rows (row r lies in the block of point r / 512), so after the run the result array is `score u v`.
-/
import proofs.«167131_j70300024701472_1_alg».proof.Proof.Gen.KernelIdeal.Value
import proofs.«167131_j70300024701472_1_alg».proof.Proof.ScoreBody
import proofs.«167131_j70300024701472_1_alg».proof.Proof.Score

noncomputable section

open scoped BigOperators

namespace Cert.KernelIdeal.ScoreBlocks

open Cert.KernelIdeal Cert.KernelIdeal.Gen Cert.KernelIdeal.Value Idealize.ShloMosaic Idealize.ShloMosaic.TcCoe
open Idealize.SL.Sem Idealize.ShloMosaic.ValueIdx Cert.Score
open Idealize.ShloMosaic.Pipeline (Dat)

variable (m : (ℓ : Loc nD τ sig) → Buf (Elt Ideal) ℓ) (ρ : Dev nD → PrngReg)

theorem zero_offset : (![0, 0] : Fin 2 → Nat) = fun _ => 0 := funext fun a => by fin_cases a <;> rfl

/-- The grid has four points. -/
theorem point_lt (t : Fin cfg0.N) : t.val < 4 := lt_of_lt_of_eq t.isLt N_0

/-- Where the three windows stand at point t: the user window and the result window on block row t, block column
    0; the item window on its one block. Decided over the four points. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The user block at point t, entry (p, k), is the user rows' entry (512·t + p, k). -/
theorem users_block (c : Dev nD) (t : Fin cfg0.N) (p : Fin 512) (k : Fin 64) (h : t.val * 512 + p.val < 2048) :
    iblk m c 0 t (ix2 p k) = V m c main_v53 (ix2 (n0 := 2048) (n1 := 64) ⟨t.val * 512 + p.val, h⟩ k) := by
  obtain ⟨e0, e1, -⟩ := index_facts t
  show V m c main_v53 (((cfg0.win 0).blk t).view.emb (ix2 p k)) = V m c main_v53 _
  refine congrArg (V m c main_v53) ?_
  funext a; apply Fin.ext
  match a with
  | ⟨0, _⟩ => show win0_0.index t (0 : Fin 2) * 512 + 1 * p.val = t.val * 512 + p.val; omega
  | ⟨1, _⟩ => show win0_0.index t (1 : Fin 2) * 64 + 1 * k.val = k.val; omega

/-- The item block at any point, entry (q, k), is the item rows' entry (q, k): the block is the whole table. -/
theorem items_block (c : Dev nD) (t : Fin cfg0.N) (q : Fin 2048) (k : Fin 64) :
    iblk m c 1 t (ix2 q k) = V m c main_v60 (ix2 q k) := by
  obtain ⟨-, -, e2, e3, -⟩ := index_facts t
  show V m c main_v60 (((cfg0.win 1).blk t).view.emb (ix2 q k)) = V m c main_v60 _
  refine congrArg (V m c main_v60) ?_
  funext a; apply Fin.ext
  match a with
  | ⟨0, _⟩ => show win0_1.index t (0 : Fin 2) * 2048 + 1 * q.val = q.val; omega
  | ⟨1, _⟩ => show win0_1.index t (1 : Fin 2) * 64 + 1 * k.val = k.val; omega

/-- The result block at point t, entry (p, q), sits at the result's entry (512·t + p, q): a table read there. -/
theorem result_block (G : S2048x2048.Idx → EReal) (t : Fin cfg0.N) (p : Fin 512) (q : Fin 2048)
    (h : t.val * 512 + p.val < 2048) :
    G (((cfg0.win 2).blk t).view.emb (ix2 p q)) = G (ix2 (n0 := 2048) (n1 := 2048) ⟨t.val * 512 + p.val, h⟩ q) := by
  obtain ⟨-, -, -, -, e4, e5⟩ := index_facts t
  refine congrArg G ?_
  funext a; apply Fin.ext
  match a with
  | ⟨0, _⟩ => show win0_2.index t (0 : Fin 2) * 512 + 1 * p.val = t.val * 512 + p.val; omega
  | ⟨1, _⟩ => show win0_2.index t (1 : Fin 2) * 2048 + 1 * q.val = q.val; omega

/-- WHAT POINT t WRITES BACK is block t of the score table of the user rows and item rows the region finds. -/
theorem flushed_eq (c : Dev nD) (t : Fin cfg0.N) :
    (dats m 0 c).flushed 2 t
      = ((cfg0.win 2).blk t).view.read (Elt Ideal) (score (V m c main_v53) (V m c main_v60)) := by
  rw [flushed2]
  unfold out0_2
  rw [View.canon_unit_zero zero_offset]
  simp only [View.ld_unit_zero (S := S512x64) zero_offset, View.ld_unit_zero (S := S2048x64) zero_offset]
  funext j
  obtain ⟨p, q, rfl⟩ : ∃ (p : Fin 512) (q : Fin 2048), j = ix2 p q := ⟨j 0, j 1, eq_ix2 j⟩
  have ht := point_lt t
  have hp : p.val < 512 := p.isLt
  have h : t.val * 512 + p.val < 2048 := by omega
  have hpay := ScoreBody.payload_apply (iblk m c 0 t) (iblk m c 1 t) p q
  have hG := score_apply (V m c main_v53) (V m c main_v60) ⟨t.val * 512 + p.val, h⟩ q
  generalize k0_pay1 (F := Ideal) (iblk m c 0 t) (iblk m c 1 t) = Y at hpay ⊢
  generalize score (V m c main_v53) (V m c main_v60) = G at hG ⊢
  show Y (ix2 p q) = G (((cfg0.win 2).blk t).view.emb (ix2 p q))
  rw [result_block G t p q h, hpay, hG]
  refine congrArg Ideal.logistic (Finset.sum_congr rfl fun k _ => ?_)
  rw [users_block m c t p k h, items_block m c t q k]

/-- An index of the result is in point t's block iff each coordinate is in the block's range on its axis. -/
theorem mem_blk (t : Fin cfg0.N) (i : S2048x2048.Idx) :
    i ∈ ((cfg0.win 2).blk t).view.set ↔ ∀ a : Fin 2, win0_2.index t a * S512x2048.size a ≤ (i a).val
      ∧ (i a).val < win0_2.index t a * S512x2048.size a + S512x2048.size a := by
  show i ∈ ((View.whole main_v61).slice (win0_2.rect t)).set ↔ _
  rw [View.set_slice_whole, Rect.mem_set_unit]
  exact Iff.rfl

/-- The four blocks cover the result: row r is in the block of point r / 512. -/
theorem cover (i : S2048x2048.Idx) :
    ∃ t : Fin cfg0.N, (cfg0.win 2).flush t = true ∧ i ∈ ((cfg0.win 2).blk t).view.set := by
  have hi0 : (i 0).val < 2048 := (i 0).isLt
  have hi1 : (i 1).val < 2048 := (i 1).isLt
  have hN : (i 0).val / 512 < cfg0.N := lt_of_lt_of_eq (show (i 0).val / 512 < 4 by omega) N_0.symm
  refine ⟨⟨(i 0).val / 512, hN⟩, flush0_2 _, ?_⟩
  obtain ⟨-, -, -, -, e4, e5⟩ := index_facts ⟨(i 0).val / 512, hN⟩
  have e4' : win0_2.index ⟨(i 0).val / 512, hN⟩ (0 : Fin 2) = (i 0).val / 512 := e4
  rw [mem_blk]
  intro a
  match a with
  | ⟨0, _⟩ =>
    show win0_2.index ⟨(i 0).val / 512, hN⟩ (0 : Fin 2) * 512 ≤ (i 0).val
      ∧ (i 0).val < win0_2.index ⟨(i 0).val / 512, hN⟩ (0 : Fin 2) * 512 + 512
    omega
  | ⟨1, _⟩ =>
    show win0_2.index ⟨(i 0).val / 512, hN⟩ (1 : Fin 2) * 2048 ≤ (i 1).val
      ∧ (i 1).val < win0_2.index ⟨(i 0).val / 512, hN⟩ (1 : Fin 2) * 2048 + 2048
    omega

/-- THE RESULT ARRAY after the run is the score table of the user rows and item rows the region finds. -/
theorem final (c : Dev nD) :
    (dats m 0 c).arrAt 2 cfg0.N = score (V m c main_v53) (V m c main_v60) :=
  (dats m 0 c).arrAt_eq_of_cover 2 (score (V m c main_v53) (V m c main_v60)) (fun t _ => flushed_eq m c t) cover

/-- The kernel's run: it terminates without a fault, its result array the score table of the rows the region finds,
    its arguments unchanged. -/
theorem run : θ_run defs (onTc (τ := τ) (main (F := Ideal))) ⟨m, fun _ => 0, ρ⟩ fun r => ∀ c : Dev nD,
      r.2.mem ((c : Thread nD τ).loc main_v61) = score (V m c main_v53) (V m c main_v60)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (run_blocks m ρ)

end Cert.KernelIdeal.ScoreBlocks

end
-- ==== Proof.LibLogisticSoftplus.lean ====
/-
  The logistic function and softplus as they are spelt out in float operations, read over the extended reals.

  * The f32 word 0x3F800000 is 1 and the word 0x00000000 is 0.
  * 1 / (1 + e⁻ˣ), with the constant 1 given by its word, is the logistic function at every extended real
    (−∞ ↦ 0, +∞ ↦ 1 included): `logistic_eq`.
  * softplus x = log(1 + eˣ) in its overflow-safe form max(x, 0) + log1p(exp(−|x − 0|)), guarded by the test
    `x − 0 ≠ x − 0` that no extended real passes, in two spellings that differ only in how the exponent's sign is
    written — as a difference from zero (`softplusK`) or as a negation (`softplusH`) — and in the comparison's
    ordered / unordered flavour, which the extended reals do not tell apart: `softplusH_eq`.
-/
import Idealize.ShloMosaic.PureOps.Ideal.Laws

noncomputable section

namespace Cert.LibLogisticSoftplus

open Idealize.ShloMosaic

/-- The f32 words of 0 and of 1, as extended reals. -/
abbrev zeroW : EReal := Ideal.ofBits .f32 0x00000000#32
abbrev oneW : EReal := Ideal.ofBits .f32 0x3F800000#32

/-- The word of 0 is 0. -/
theorem zeroW_eq : zeroW = 0 := Ideal.ofBits_zero_f32

/-- The word of 1 is 1: sign 0, exponent 127, mantissa 0. -/
theorem oneW_eq : oneW = 1 := by
  show Ideal.ofBits .f32 0x3F800000#32 = ((1 : ℝ) : EReal)
  simp [Ideal.ofBits, Ideal.ieee, -EReal.coe_mul]
  norm_num

/-- softplus with the exponent −|x − 0| written as the difference 0 − |x − 0|, behind an ordered `≠` test. -/
def softplusK (x : EReal) : EReal :=
  Scalar.select (Ideal.cmp .one (x - zeroW) (x - zeroW)) (x + zeroW)
    (max x zeroW + Ideal.log1p (Ideal.exp (zeroW - max (x - zeroW) (-(x - zeroW)))))

/-- softplus with the exponent written as the negation −|x − 0|, behind an unordered `≠` test. -/
def softplusH (x : EReal) : EReal :=
  Scalar.select (Ideal.cmp .une (x - zeroW) (x - zeroW)) (x + zeroW)
    (max x zeroW + Ideal.log1p (Ideal.exp (-(max (x - zeroW) (-(x - zeroW))))))

/-- The two spellings are one function: 0 − y = −y, and the two comparisons agree on the extended reals. -/
theorem softplusH_eq (x : EReal) : softplusH x = softplusK x := by
  unfold softplusK softplusH
  rw [show Ideal.cmp .one (x - zeroW) (x - zeroW) = Ideal.cmp .une (x - zeroW) (x - zeroW) from rfl]
  rw [show zeroW - max (x - zeroW) (-(x - zeroW)) = -(max (x - zeroW) (-(x - zeroW))) by rw [zeroW_eq, zero_sub]]

/-- The logistic function spelt 1 / (1 + e⁻ˣ) with the word of 1. -/
theorem logistic_eq (x : EReal) : Ideal.div oneW (oneW + Ideal.exp (-x)) = Ideal.logistic x := by
  rw [oneW_eq]; rfl

end Cert.LibLogisticSoftplus

end
-- ==== Proof.RefScore.lean ====
/-
  The reference's result is the score table of its two gathered row tables.

  After its shared preparation the reference holds the gathered user rows `u` and item rows `v`, both [2048, 64].
  It transposes `v`, multiplies `u` by the transpose contracting the 64 embedding coordinates, and spells the
  logistic function out as 1 / (1 + e⁻ˢ) with the constant 1 written as its f32 word. Entry (p, q) of the product
  is ∑ₖ u(p, k) · vᵀ(k, q) = ∑ₖ u(p, k) · v(q, k), and 1 / (1 + e⁻ˢ) is the logistic function at every extended
  real, the two infinities included. So the result is `score u v`.
-/
import proofs.«167131_j70300024701472_1_alg».proof.Proof.Gen.ReferenceIdeal.Read
import proofs.«167131_j70300024701472_1_alg».proof.Proof.Score
import proofs.«167131_j70300024701472_1_alg».proof.Proof.LibLogisticSoftplus

noncomputable section

open scoped BigOperators

namespace Cert.ReferenceIdeal.RefScore

open Cert.ReferenceIdeal Cert.ReferenceIdeal.Read Idealize.ShloMosaic Idealize.ShloMosaic.ValueIdx

/-- The product's left operand is read at (row of the entry, k). -/
theorem left_at (i : S2048x2048.Idx) (k : Fin 64) :
    lidx_main_v62 i k = ix2 (n0 := 2048) (n1 := 64) ⟨(i 0).val, (i 0).isLt⟩ k :=
  funext fun a => Fin.ext (by match a with | ⟨0, _⟩ => rfl | ⟨1, _⟩ => rfl)

/-- The product's right operand, the transpose, read back in the item table: at (column of the entry, k). -/
theorem right_at (i : S2048x2048.Idx) (k : Fin 64) :
    idx_main_v61 (ridx_main_v62 i k) = ix2 (n0 := 2048) (n1 := 64) ⟨(i 1).val, (i 1).isLt⟩ k :=
  funext fun a => Fin.ext (by match a with | ⟨0, _⟩ => rfl | ⟨1, _⟩ => rfl)

/-- The reference's result is the score table of its gathered user rows and item rows. -/
theorem result_is_score (x0 : (⟨S100000x64, .f32⟩ : BufTy).Contents (Elt Ideal)) (x1 : (⟨S50000x64, .f32⟩ : BufTy).Contents (Elt Ideal))
    (x2 : (⟨S2000000, .f32⟩ : BufTy).Contents (Elt Ideal)) (x3 x4 : (⟨S2000000, .i32⟩ : BufTy).Contents (Elt Ideal))
    (x5 x6 : (⟨S2048, .i32⟩ : BufTy).Contents (Elt Ideal)) :
    val_main_v68 (F := Ideal) x0 x1 x2 x3 x4 x5 x6
      = Cert.Score.score (val_main_v53 (F := Ideal) x0 x1 x2 x3 x4 x5) (val_main_v60 (F := Ideal) x0 x1 x2 x3 x4 x6) := by
  funext i
  rw [val_main_v68_apply, val_main_v67_apply, val_main_cst_13_apply, val_main_v66_apply, val_main_v65_apply,
    val_main_cst_12_apply, val_main_v64_apply, val_main_v63_apply, val_main_v62_apply]
  simp only [val_main_v61_apply, left_at, right_at, Ideal.hostDivf_def, Ideal.addf_def, Ideal.hostUnary_exp_def,
    Ideal.hostNegf_def, Ideal.negf_def, Ideal.ofBits_def]
  exact Cert.LibLogisticSoftplus.logistic_eq _

end Cert.ReferenceIdeal.RefScore

end
-- ==== Proof.UsersRows.lean ====
/-
  The user rows the kernel's region finds are the reference's gathered user rows.

  Before the scoring both programs prepare their row tables by the same host operations, in the same order, from the
  same arguments: the two embedding tables stacked into one node table, three rounds of message passing over the
  edge list (each round gathers the source rows, weights them, and sums them into their destination rows), the mean
  of the four embeddings, the split back into user and item tables, and the gather of the requested rows. What the
  kernel's region finds in the array its first window stands on, read back operation by operation, is therefore the
  very composition of operations that the reference's user-row stage names, of the same arguments; nothing of the
  preparation is opened.
-/
import proofs.«167131_j70300024701472_1_alg».proof.Proof.Gen.KernelIdeal.Frame
import proofs.«167131_j70300024701472_1_alg».proof.Proof.Gen.ReferenceIdeal.Read

noncomputable section

namespace Cert.SharedRows

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ)

set_option maxRecDepth 8192 in
set_option maxHeartbeats 8000000 in
/-- The array under the kernel's user window, at region entry, is the reference's user-row stage of the kernel's arguments. -/
theorem users_rows (c : Dev Cert.KernelIdeal.nD) :
    Cert.KernelIdeal.Gen.V m c Cert.KernelIdeal.main_v53
      = Cert.ReferenceIdeal.Read.val_main_v53 (F := Ideal)
          (m ((c : Thread Cert.KernelIdeal.nD Cert.KernelIdeal.τ).loc Cert.KernelIdeal.main_arg0))
          (m ((c : Thread Cert.KernelIdeal.nD Cert.KernelIdeal.τ).loc Cert.KernelIdeal.main_arg1))
          (m ((c : Thread Cert.KernelIdeal.nD Cert.KernelIdeal.τ).loc Cert.KernelIdeal.main_arg2))
          (m ((c : Thread Cert.KernelIdeal.nD Cert.KernelIdeal.τ).loc Cert.KernelIdeal.main_arg3))
          (m ((c : Thread Cert.KernelIdeal.nD Cert.KernelIdeal.τ).loc Cert.KernelIdeal.main_arg4))
          (m ((c : Thread Cert.KernelIdeal.nD Cert.KernelIdeal.τ).loc Cert.KernelIdeal.main_arg5)) := by
  dsimp only [Cert.KernelIdeal.Gen.V, Cert.KernelIdeal.Gen.hostOps0]
  after_results_simp
  rfl

end Cert.SharedRows

end
-- ==== Proof.ItemsRows.lean ====
/-
  The item rows the kernel's region finds are the reference's gathered item rows.

  As for the user rows: the array its second window stands on was written, before the region, by the same host
  operations from the same arguments as the reference's item-row stage (the shared message passing and mean, the
  item half of the split, the gather of the requested item rows), so read back operation by operation it is that
  stage of the kernel's arguments; nothing of the preparation is opened.
-/
import proofs.«167131_j70300024701472_1_alg».proof.Proof.Gen.KernelIdeal.Frame
import proofs.«167131_j70300024701472_1_alg».proof.Proof.Gen.ReferenceIdeal.Read

noncomputable section

namespace Cert.SharedRows

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ)

set_option maxRecDepth 8192 in
set_option maxHeartbeats 8000000 in
/-- The array under the kernel's item window, at region entry, is the reference's item-row stage of the kernel's arguments. -/
theorem items_rows (c : Dev Cert.KernelIdeal.nD) :
    Cert.KernelIdeal.Gen.V m c Cert.KernelIdeal.main_v60
      = Cert.ReferenceIdeal.Read.val_main_v60 (F := Ideal)
          (m ((c : Thread Cert.KernelIdeal.nD Cert.KernelIdeal.τ).loc Cert.KernelIdeal.main_arg0))
          (m ((c : Thread Cert.KernelIdeal.nD Cert.KernelIdeal.τ).loc Cert.KernelIdeal.main_arg1))
          (m ((c : Thread Cert.KernelIdeal.nD Cert.KernelIdeal.τ).loc Cert.KernelIdeal.main_arg2))
          (m ((c : Thread Cert.KernelIdeal.nD Cert.KernelIdeal.τ).loc Cert.KernelIdeal.main_arg3))
          (m ((c : Thread Cert.KernelIdeal.nD Cert.KernelIdeal.τ).loc Cert.KernelIdeal.main_arg4))
          (m ((c : Thread Cert.KernelIdeal.nD Cert.KernelIdeal.τ).loc Cert.KernelIdeal.main_arg6)) := by
  dsimp only [Cert.KernelIdeal.Gen.V, Cert.KernelIdeal.Gen.hostOps0]
  after_results_simp
  rfl

end Cert.SharedRows

end
-- ==== Proof.lean ====
/-
  Scoring user rows against item rows: a tiled kernel against the plain formula.

  Both programs prepare their inputs by the SAME host operations: the user and item embedding tables are stacked into
  one node table, three rounds of message passing over the edge list are summed with it and divided by four, the mean
  is split back into a user and an item table, and 2048 requested rows of each are gathered — the user rows `u` and
  the item rows `v`, both [2048, 64]. They differ only in the scoring:

    * the kernel walks four blocks of 512 user rows; at each it rounds the block and the whole of `v` to bf16,
      multiplies them contracting the 64 embedding coordinates of BOTH (no transpose is formed), applies the logistic
      function, and writes 512 rows of the [2048, 2048] result;
    * the reference transposes `v`, forms the one product `u · vᵀ`, and spells the logistic function as 1 / (1 + e⁻ˢ).

  Over the extended reals a change of float format is the identity and both products are the exact sums, so both
  results are the table

      score u v (p, q) = logistic (∑ₖ u(p, k) · v(q, k)),

  the kernel's because each of its four blocks is a block of that one table and the blocks tile it, the reference's
  because ∑ₖ u(p, k) · vᵀ(k, q) is the same sum and 1 / (1 + e⁻ˢ) is the logistic function at every extended real, the
  infinities included. No law that needs finite entries is used, so the precondition is never opened; the idealization
  rewrote nothing, so there is nothing to preserve beyond the program's own text.

  The pieces: `Score` (the table), `ScoreBody` (the kernel body at an entry), `ScoreBlocks` (blocks to the whole
  result, and the kernel's run), `RefScore` (the reference's last stages are the table), `UsersRows` / `ItemsRows`
  (the rows the kernel's region finds are the reference's gathered rows: the shared preparation, never opened).
-/
import proofs.«167131_j70300024701472_1_alg».proof.Defs
import proofs.«167131_j70300024701472_1_alg».proof.Proof.Gen.Kernel
import proofs.«167131_j70300024701472_1_alg».proof.Proof.Gen.Kernel.Frame
import proofs.«167131_j70300024701472_1_alg».proof.Proof.Gen.KernelIdeal
import proofs.«167131_j70300024701472_1_alg».proof.Proof.Gen.KernelIdeal.Frame
import proofs.«167131_j70300024701472_1_alg».proof.Proof.Gen.KernelIdeal.Value
import proofs.«167131_j70300024701472_1_alg».proof.Proof.Gen.ReferenceIdeal
import proofs.«167131_j70300024701472_1_alg».proof.Proof.Gen.ReferenceIdeal.Run
import proofs.«167131_j70300024701472_1_alg».proof.Proof.Gen.ReferenceIdeal.Read
import proofs.«167131_j70300024701472_1_alg».proof.Proof.Gen.Pre_finite_inputs
import proofs.«167131_j70300024701472_1_alg».proof.Proof.ScoreBlocks
import proofs.«167131_j70300024701472_1_alg».proof.Proof.RefScore
import proofs.«167131_j70300024701472_1_alg».proof.Proof.UsersRows
import proofs.«167131_j70300024701472_1_alg».proof.Proof.ItemsRows
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read over the extended reals. -/
theorem frame_ideal : Cert.frame_KernelIdeal := fun m ρ _ => Cert.KernelIdeal.Gen.frame m ρ

/-- The reference runs and leaves its arguments as they were: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both programs end with the score table of the same user rows and item
    rows: the kernel's result is the table of the rows its region finds, the reference's the table of its gathered
    rows, and those rows are the same stages of the same arguments. -/
theorem algebraic : Cert.algebraic_KernelIdeal_ReferenceIdeal := by
  intro m ρ m' ρ' _ hagree
  refine ⟨fun c => Cert.Score.score (Cert.KernelIdeal.Gen.V m c Cert.KernelIdeal.main_v53)
    (Cert.KernelIdeal.Gen.V m c Cert.KernelIdeal.main_v60), Cert.KernelIdeal.ScoreBlocks.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  beta_reduce
  rw [Cert.ReferenceIdeal.Read.val_main_v68_eq, Cert.ReferenceIdeal.RefScore.result_is_score,
    h0, h1, h2, h3, h4, h5, h6, Cert.SharedRows.users_rows m c, Cert.SharedRows.items_rows m c]

theorem claim : Cert.Claim := ⟨Cert.Kernel.Gen.facts, Cert.KernelIdeal.Gen.facts, Cert.ReferenceIdeal.Gen.facts,
  Cert.Pre_finite_inputs.Gen.facts, frame_kernel, frame_ideal, frame_reference, trivial, algebraic⟩

end Cert.Proof

end
